-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x8192 : Shape := ⟨2, ![2048, 8192]⟩
abbrev S8192 : Shape := ⟨1, ![8192]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4x4096x2048 .f32) (main_arg1 : FVec F S2048x8192 .f32) (main_arg2 : FVec F S8192 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4x4096x2048 : Shape := ⟨3, ![4, 4096, 2048]⟩
abbrev S2048x8192 : Shape := ⟨2, ![2048, 8192]⟩
abbrev S8192 : Shape := ⟨1, ![8192]⟩
abbrev S16384x2048 : Shape := ⟨2, ![16384, 2048]⟩
abbrev S_ : Shape := ⟨0, ![]⟩
abbrev S1x8192 : Shape := ⟨2, ![1, 8192]⟩
abbrev S16384 : Shape := ⟨1, ![16384]⟩
abbrev S16384x1 : Shape := ⟨2, ![16384, 1]⟩
abbrev S16384x8192 : Shape := ⟨2, ![16384, 8192]⟩
abbrev S1024x2048 : Shape := ⟨2, ![1024, 2048]⟩
abbrev S2048x512 : Shape := ⟨2, ![2048, 512]⟩
abbrev S1024x1 : Shape := ⟨2, ![1024, 1]⟩
abbrev S1x512 : Shape := ⟨2, ![1, 512]⟩
abbrev S1024x512 : Shape := ⟨2, ![1024, 512]⟩
abbrev S4x4096x8192 : Shape := ⟨3, ![4, 4096, 8192]⟩

abbrev nBuf : Space → Nat
  | .hbm => 39
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S8192, .f32⟩
  | .hbm, ⟨3, _⟩ => ⟨S16384x2048, .f32⟩
  | .hbm, ⟨4, _⟩ => ⟨S2048x8192, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S_, .f32⟩
  | .hbm, ⟨9, _⟩ => ⟨S1x8192, .f32⟩
  | .hbm, ⟨10, _⟩ => ⟨S1x8192, .f32⟩
  | .hbm, ⟨11, _⟩ => ⟨S_, .f32⟩
  | .hbm, ⟨12, _⟩ => ⟨S2048x8192, .f32⟩
  | .hbm, ⟨13, _⟩ => ⟨S2048x8192, .i1⟩
  | .hbm, ⟨14, _⟩ => ⟨S_, .f32⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S2048x8192, .bf16⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x2048, .f32⟩
  | .hbm, ⟨29, _⟩ => ⟨S16384x2048, .i1⟩
  | .hbm, ⟨30, _⟩ => ⟨S_, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | .hbm, ⟨36, _⟩ => ⟨S1x8192, .f32⟩
  | .hbm, ⟨37, _⟩ => ⟨S16384x8192, .f32⟩
  | .hbm, ⟨38, _⟩ => ⟨S4x4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_cst_3 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_cst_7 : Ref sig .tc := ⟨.hbm, 30, rfl⟩
abbrev main_cst_8 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096x2048_S16384x2048 : S4x4096x2048.ShapeCasts S16384x2048
  reducesTo_S2048x8192_S8192_d0 : S2048x8192.ReducesTo [0] S8192
  h_S_ : 0 < S_.numel
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S_S2048x8192 : S_.BroadcastsInDim S2048x8192 (![] : Fin 0 → Fin S2048x8192.rank)
  bitsLt_bf16_f32 : FTy.bits .bf16 < FTy.bits .f32
  reducesTo_S16384x2048_S16384_d1 : S16384x2048.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S_S16384x2048 : S_.BroadcastsInDim S16384x2048 (![] : Fin 0 → Fin S16384x2048.rank)
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x8192_S4x4096x8192 : S16384x8192.ShapeCasts S4x4096x8192
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .bf16 = 32 ∨ (Rect.block (s := S2048x8192) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S16384x8192.size a
  hwx0_5 : ∀ i : grid0.Coords, EltTy.bits .f32 = 32 ∨ (Rect.block (s := S16384x8192) S1024x512.size (cc0_transform_5 i) (hinb0_5 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v18) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x8192 : Shape := ⟨2, ![2048, 8192]⟩
abbrev S8192 : Shape := ⟨1, ![8192]⟩
abbrev S_ : Shape := ⟨0, ![]⟩
abbrev S1x8192 : Shape := ⟨2, ![1, 8192]⟩
abbrev S4x4096 : Shape := ⟨2, ![4, 4096]⟩
abbrev S4x4096x1 : Shape := ⟨3, ![4, 4096, 1]⟩
abbrev S4x4096x8192 : Shape := ⟨3, ![4, 4096, 8192]⟩
abbrev S1x1x8192 : Shape := ⟨3, ![1, 1, 8192]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S8192, .f32⟩
  | .hbm, ⟨3, _⟩ => ⟨S2048x8192, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .f32⟩
  | .hbm, ⟨10, _⟩ => ⟨S_, .f32⟩
  | .hbm, ⟨11, _⟩ => ⟨S1x8192, .f32⟩
  | .hbm, ⟨12, _⟩ => ⟨S1x8192, .f32⟩
  | .hbm, ⟨13, _⟩ => ⟨S2048x8192, .f32⟩
  | .hbm, ⟨14, _⟩ => ⟨S2048x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S_, .f32⟩
  | .hbm, ⟨25, _⟩ => ⟨S2048x8192, .f32⟩
  | .hbm, ⟨26, _⟩ => ⟨S2048x8192, .f32⟩
  | .hbm, ⟨27, _⟩ => ⟨S2048x8192, .f32⟩
  | .hbm, ⟨28, _⟩ => ⟨S2048x8192, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x8192, .f32⟩
  | .hbm, ⟨56, _⟩ => ⟨S1x1x8192, .f32⟩
  | .hbm, ⟨57, _⟩ => ⟨S4x4096x8192, .f32⟩
  | .hbm, ⟨58, _⟩ => ⟨S4x4096x8192, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_cst_9 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩

abbrev nD : Nat := 1
abbrev τ : Topo := Topo.v7x

variable {F : FTy → Type} [FloatOps F]

class Facts₀ : Prop where
  reducesTo_S2048x8192_S8192_d0 : S2048x8192.ReducesTo [0] S8192
  h_S_ : 0 < S_.numel
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S2048x8192_0_1 : S1x8192.BroadcastsInDim S2048x8192 (![0, 1] : Fin 2 → Fin S2048x8192.rank)
  bcast_S_S2048x8192 : S_.BroadcastsInDim S2048x8192 (![] : Fin 0 → Fin S2048x8192.rank)
  reducesTo_S4x4096x2048_S4x4096_d2 : S4x4096x2048.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S_S4x4096x2048 : S_.BroadcastsInDim S4x4096x2048 (![] : Fin 0 → Fin S4x4096x2048.rank)
  bcast_S8192_S1x1x8192_2 : S8192.BroadcastsInDim S1x1x8192 (![2] : Fin 1 → Fin S1x1x8192.rank)
  bcast_S1x1x8192_S4x4096x8192_0_1_2 : S1x1x8192.BroadcastsInDim S4x4096x8192 (![0, 1, 2] : Fin 3 → Fin S4x4096x8192.rank)
  dot_S4x4096x2048_S2048x8192_S4x4096x8192_2_0_01_1_n_n_wf : DotDims.WF S4x4096x2048 S2048x8192 S4x4096x8192 [2] [0] [0, 1] [1] [] []

variable [Facts₀]

def dot_S4x4096x2048_S2048x8192_S4x4096x8192_2_0_01_1_n_n : DotDims S4x4096x2048 S2048x8192 S4x4096x8192 where
  lhsContracting := [2]
  rhsContracting := [0]
  lhsNonContracting := [0, 1]
  rhsNonContracting := [1]
  lhsBatch := []
  rhsBatch := []
  wf := dot_S4x4096x2048_S2048x8192_S4x4096x8192_2_0_01_1_n_n_wf

class Facts : Prop extends Facts₀ where

variable [Facts]
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.BinarizeLaw.lean ====
/-
  Binarize-then-multiply, on the extended reals.

  A row x of real numbers is "binarized" against a bound β that exceeds every |x d|: each entry is scaled by 1/β into
  the open interval (-1, 1), clipped to [-c, c] for a constant 0 < c < 1, floored (giving 0 for a non-negative
  entry and -1 for a negative one), shifted by 1/2 and scaled back by β. The result is (β/2)·sgn(x d), with sgn(0) = +1.
  The bound used is β = max_d |x d| + ε for a constant ε > 0, so β is a positive real number whenever the entries are.

  Hence a product of two binarized operands contracted over d is
      Σ_d (a/2)·sgn(x d) · (w/2)·sgn(y d) = ((Σ_d sgn(x d)·sgn(y d)) · 1/4) · a · w,
  which is the form in which the signs are contracted first and the two bounds multiplied in afterwards.  Both sides
  are sums and products of real numbers, where distributivity holds; this file proves the equality on the extended
  reals from the hypothesis that the entries are real numbers.
-/
import Idealize.ShloMosaic.PureOps.Ideal
import Idealize.ShloMosaic.PureOps.Ideal.Laws
import Idealize.ShloMosaic.Lib.ValueIdx
import proofs.«175212_j6047313952874_2_alg».proof.Proof.LibRealValued

noncomputable section

namespace Cert.BiDense

open Idealize.ShloMosaic Cert.RealValued

/-! ## The literals -/

theorem lit_one : Ideal.ofBits .f32 0x3F800000#32 = ((1 : ℝ) : EReal) := by
  simp [Ideal.ofBits, Ideal.ieee, -EReal.coe_mul]; norm_num

theorem lit_negOne : Ideal.ofBits .f32 0xBF800000#32 = ((-1 : ℝ) : EReal) := by
  simp [Ideal.ofBits, Ideal.ieee, -EReal.coe_mul, -EReal.coe_neg]; norm_num

theorem lit_half : Ideal.ofBits .f32 0x3F000000#32 = ((1 / 2 : ℝ) : EReal) := by
  simp [Ideal.ofBits, Ideal.ieee, -EReal.coe_mul]; norm_num

theorem lit_quarter : Ideal.ofBits .f32 0x3E800000#32 = ((1 / 4 : ℝ) : EReal) := by
  simp [Ideal.ofBits, Ideal.ieee, -EReal.coe_mul]; norm_num

theorem lit_negInf : Ideal.ofBits .f32 0xFF800000#32 = ⊥ := by
  simp [Ideal.ofBits, Ideal.ieee]

/-- The increment added to a row's largest magnitude is a positive real number (2⁻²³). -/
theorem lit_eps : ∃ e : ℝ, 0 < e ∧ Ideal.ofBits .f32 0x34000000#32 = (e : EReal) :=
  ⟨(1 / 8388608 : ℝ), by norm_num, by simp [Ideal.ofBits, Ideal.ieee, -EReal.coe_mul]; norm_num⟩

/-- The clip bound is a real number strictly between 0 and 1, and the lower clip bound is its negative. -/
theorem lit_clip : ∃ c : ℝ, 0 < c ∧ c < 1 ∧ Ideal.ofBits .f32 0x3F7FBE77#32 = (c : EReal)
    ∧ Ideal.ofBits .f32 0xBF7FBE77#32 = ((-c : ℝ) : EReal) :=
  ⟨(16760439 / 16777216 : ℝ), by norm_num, by norm_num,
    by simp [Ideal.ofBits, Ideal.ieee, -EReal.coe_mul]; norm_num,
    by simp [Ideal.ofBits, Ideal.ieee, -EReal.coe_mul, -EReal.coe_neg]; norm_num⟩

/-! ## The sign, the bound and the binarized entry, as the two programs spell them -/

/-- The sign as it is computed from a comparison with zero: +1 where 0 ≤ z, otherwise -1. -/
def sgnE (z : EReal) : EReal :=
  Scalar.select (Ideal.cmp .oge z (Ideal.ofBits .f32 0x00000000#32)) (Ideal.ofBits .f32 0x3F800000#32)
    (Ideal.ofBits .f32 0xBF800000#32)

/-- The same sign on the real numbers. -/
def sgnR (r : ℝ) : ℝ := if 0 ≤ r then 1 else -1

theorem sgnE_coe (r : ℝ) : sgnE (r : EReal) = ((sgnR r : ℝ) : EReal) := by
  unfold sgnE sgnR Ideal.cmp
  rw [Ideal.ofBits_zero_f32, lit_one, lit_negOne]
  by_cases h : 0 ≤ r
  · have h' : (0 : EReal) ≤ (r : EReal) := EReal.coe_nonneg.mpr h
    rw [if_pos h]
    show Scalar.select (BitVec.ofBool (decide ((0 : EReal) ≤ (r : EReal)))) _ _ = _
    rw [decide_eq_true h']
    exact ValueIdx.select_one _ _
  · have h' : ¬ (0 : EReal) ≤ (r : EReal) := fun hh => h (EReal.coe_nonneg.mp hh)
    rw [if_neg h]
    show Scalar.select (BitVec.ofBool (decide ((0 : EReal) ≤ (r : EReal)))) _ _ = _
    rw [decide_eq_false h']
    exact ValueIdx.select_zero _ _

/-- The bound of a row: its largest magnitude (a fold of max from -inf over |g k| = max (g k) (-(g k))) plus ε. -/
def bound {n : Nat} (g : Fin n → EReal) : EReal :=
  (Finset.univ : Finset (Fin n)).fold max (Ideal.ofBits .f32 0xFF800000#32) (fun k => max (g k) (-(g k)))
    + Ideal.ofBits .f32 0x34000000#32

/-- The bound of a non-empty row of real numbers is a real number exceeding every entry's magnitude. -/
theorem bound_spec {n : Nat} (g : Fin n → ℝ) (k0 : Fin n) :
    ∃ β : ℝ, bound (fun k => (g k : EReal)) = (β : EReal) ∧ ∀ k, |g k| < β := by
  obtain ⟨e, he, hel⟩ := lit_eps
  have habs : ∀ k, max (g k : EReal) (-(g k : EReal)) = ((|g k| : ℝ) : EReal) := fun k => by
    rw [← EReal.coe_neg, ← EReal.coe_strictMono.monotone.map_max]; rfl
  obtain ⟨M, hM⟩ : ∃ M, M = (Finset.univ : Finset (Fin n)).fold max (⊥ : EReal) (fun k => max (g k : EReal) (-(g k : EReal))) := ⟨_, rfl⟩
  have hle : ∀ k, ((|g k| : ℝ) : EReal) ≤ M := fun k => by
    rw [hM]; exact (Finset.le_fold_max _).mpr (Or.inr ⟨k, Finset.mem_univ _, (habs k).ge⟩)
  have hlt : M < ⊤ := by
    rw [hM]; exact (Finset.fold_max_lt _).mpr ⟨bot_lt_top, fun k _ => by rw [habs]; exact EReal.coe_lt_top _⟩
  have hbot : M ≠ ⊥ := ne_of_gt (lt_of_lt_of_le (EReal.bot_lt_coe _) (hle k0))
  have hMr : M = ((M.toReal : ℝ) : EReal) := (EReal.coe_toReal hlt.ne hbot).symm
  refine ⟨M.toReal + e, ?_, fun k => ?_⟩
  · unfold bound
    rw [lit_negInf, hel, ← hM, EReal.coe_add, ← hMr]
  · have h1 := hle k
    rw [hMr] at h1
    have h2 : |g k| ≤ M.toReal := EReal.coe_le_coe_iff.mp h1
    linarith

/-- An entry binarized against a bound β: scaled by 1/β, clipped, floored, shifted by 1/2, scaled back. -/
def binE (z β : EReal) : EReal :=
  Ideal.div
    (Ideal.liftRound Int.floor
        (min (Ideal.ofBits .f32 0x3F7FBE77#32)
          (max (Ideal.ofBits .f32 0xBF7FBE77#32) (z * Ideal.div (Ideal.ofBits .f32 0x3F800000#32) β)))
      + Ideal.ofBits .f32 0x3F000000#32)
    (Ideal.div (Ideal.ofBits .f32 0x3F800000#32) β)

/-- A real entry binarized against a real bound exceeding its magnitude is half the bound, signed. -/
theorem binE_coe (r β : ℝ) (h : |r| < β) : binE (r : EReal) (β : EReal) = ((sgnR r * (1 / 2) * β : ℝ) : EReal) := by
  obtain ⟨c, hc0, hc1, hcl, hcn⟩ := lit_clip
  have hβ : 0 < β := lt_of_le_of_lt (abs_nonneg r) h
  have hβ0 : β ≠ 0 := hβ.ne'
  have hs0 : (1 / β : ℝ) ≠ 0 := by positivity
  have hspos : 0 < (1 / β : ℝ) := by positivity
  have hs : Ideal.div ((1 : ℝ) : EReal) (β : EReal) = ((1 / β : ℝ) : EReal) := by
    rw [Ideal.div_coe hβ0, ← EReal.coe_mul, one_mul]
  unfold binE
  rw [lit_one, lit_half, hcl, hcn, hs, ← EReal.coe_mul, ← EReal.coe_strictMono.monotone.map_max,
    ← EReal.coe_strictMono.monotone.map_min, Ideal.liftRound_coe,
    ← EReal.coe_add, Ideal.div_coe hs0, ← EReal.coe_mul]
  refine congrArg _ ?_
  have hy : |r * (1 / β)| < 1 := by
    rw [abs_mul, abs_of_pos hspos, mul_one_div, div_lt_one hβ]; exact h
  obtain ⟨hylo, hyhi⟩ := abs_lt.mp hy
  have hinv : (1 / (1 / β) : ℝ) = β := by field_simp
  unfold sgnR
  by_cases h0 : 0 ≤ r
  · have hy0 : 0 ≤ r * (1 / β) := mul_nonneg h0 hspos.le
    have hfl : ⌊min c (max (-c) (r * (1 / β)))⌋ = 0 := Int.floor_eq_iff.mpr
      ⟨by
        have : (0 : ℝ) ≤ min c (max (-c) (r * (1 / β))) := le_min hc0.le (le_max_of_le_right hy0)
        simpa using this,
       by
        have : min c (max (-c) (r * (1 / β))) < 1 := lt_of_le_of_lt (min_le_left _ _) hc1
        simpa using this⟩
    rw [hfl, if_pos h0, hinv]; simp
  · have hr : r < 0 := lt_of_not_ge h0
    have hyneg : r * (1 / β) < 0 := mul_neg_of_neg_of_pos hr hspos
    have hfl : ⌊min c (max (-c) (r * (1 / β)))⌋ = -1 := Int.floor_eq_iff.mpr
      ⟨by
        have : (-1 : ℝ) ≤ min c (max (-c) (r * (1 / β))) := le_min (by linarith) (le_max_of_le_left (by linarith))
        simpa using this,
       by
        have : min c (max (-c) (r * (1 / β))) < 0 := lt_of_le_of_lt (min_le_right _ _) (max_lt (by linarith) hyneg)
        simpa using this⟩
    rw [hfl, if_neg h0, hinv]; push_cast; ring

/-! ## The contraction -/

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distributivity over the contraction, on real numbers: the common factors (1/2)·a and (1/2)·w leave the sum. -/
theorem contraction_law {n : Nat} (σ τ : Fin n → ℝ) (a w : ℝ) (bias : EReal) :
    ((∑ d, (σ d : EReal) * (τ d : EReal)) * ((1 / 4 : ℝ) : EReal)) * (a : EReal) * (w : EReal) + bias
      = (∑ d, ((σ d * (1 / 2) * a : ℝ) : EReal) * ((τ d * (1 / 2) * w : ℝ) : EReal)) + bias := by
  refine congrArg (· + bias) ?_
  simp only [← EReal.coe_mul, ← coe_sum]
  refine congrArg _ ?_
  rw [Finset.sum_mul, Finset.sum_mul, Finset.sum_mul]
  exact Finset.sum_congr rfl fun d _ => by ring

/-- THE LAW that joins the two programs: on rows of real numbers, the signs contracted first and then scaled by a
    quarter and the two bounds equal the contraction of the binarized entries (a bias added to both). -/
theorem signs_contracted_eq_binarized_contracted {n : Nat} (x y : Fin n → EReal) (hx : ∀ d, IsReal (x d))
    (hy : ∀ d, IsReal (y d)) (k0 : Fin n) (bias : EReal) :
    ((∑ d, sgnE (x d) * sgnE (y d)) * Ideal.ofBits .f32 0x3E800000#32) * bound x * bound y + bias
      = (∑ d, binE (x d) (bound x) * binE (y d) (bound y)) + bias := by
  choose xr hxr using hx
  choose yr hyr using hy
  obtain rfl : x = fun d => (xr d : EReal) := funext hxr
  obtain rfl : y = fun d => (yr d : EReal) := funext hyr
  obtain ⟨a, ha, hax⟩ := bound_spec xr k0
  obtain ⟨w, hw, hwy⟩ := bound_spec yr k0
  rw [ha, hw, lit_quarter]
  have e1 : ∀ d, sgnE (xr d : EReal) * sgnE (yr d : EReal) = ((sgnR (xr d) : ℝ) : EReal) * ((sgnR (yr d) : ℝ) : EReal) :=
    fun d => by rw [sgnE_coe, sgnE_coe]
  have e2 : ∀ d, binE (xr d : EReal) (a : EReal) * binE (yr d : EReal) (w : EReal)
      = ((sgnR (xr d) * (1 / 2) * a : ℝ) : EReal) * ((sgnR (yr d) * (1 / 2) * w : ℝ) : EReal) :=
    fun d => by rw [binE_coe _ _ (hax d), binE_coe _ _ (hwy d)]
  rw [Finset.sum_congr rfl fun d _ => e1 d, Finset.sum_congr rfl fun d _ => e2 d]
  exact contraction_law (fun d => sgnR (xr d)) (fun d => sgnR (yr d)) a w bias

end Cert.BiDense

end
-- ==== Proof.RefAtIndex.lean ====
/-
  The reference read at an index.

  Entry (b, s, f) of the reference's result is the contraction over d of the binarized input entry (b, s, d) — binarized
  against the bound of input row (b, s) — with the binarized weight entry (d, f) — binarized against the bound of weight
  column f —, plus bias entry f.  The bound of a row is its largest magnitude (a maximum over the contracted axis, from
  minus infinity) plus a constant; the reference keeps it as a [4, 4096, 1] (a [1, 8192]) array and broadcasts it back
  along the contracted axis, so every entry of a row meets the same bound.
-/
import proofs.«175212_j6047313952874_2_alg».proof.Proof.Gen.ReferenceIdeal.Read
import proofs.«175212_j6047313952874_2_alg».proof.Proof.BinarizeLaw
import Idealize.ShloMosaic.Lib.ValueIdx

noncomputable section

namespace Cert.BiDense.Ref

open Cert.ReferenceIdeal Cert.ReferenceIdeal.Gen Cert.ReferenceIdeal.Read
open Idealize.ShloMosaic Idealize.ShloMosaic.ValueIdx Cert.BiDense

/-! ## The indices the layout operations read -/

theorem idx22_ix3 (b : Fin 4) (s : Fin 4096) (d : Fin 2048) : idx_main_v22 (ix3 b s d) = ix3 b s (0 : Fin 1) :=
  funext fun a => Fin.ext (by match a with | ⟨0, _⟩ => rfl | ⟨1, _⟩ => rfl | ⟨2, _⟩ => rfl)

theorem idx28_ix3 (b : Fin 4) (s : Fin 4096) (d : Fin 2048) : idx_main_v28 (ix3 b s d) = ix3 b s (0 : Fin 1) :=
  funext fun a => Fin.ext (by match a with | ⟨0, _⟩ => rfl | ⟨1, _⟩ => rfl | ⟨2, _⟩ => rfl)

theorem idx17_ix3 (b : Fin 4) (s : Fin 4096) : idx_main_v17 (ix3 b s (0 : Fin 1)) = ix2 b s :=
  funext fun a => Fin.ext (by match a with | ⟨0, _⟩ => rfl | ⟨1, _⟩ => rfl)

theorem idx7_ix2 (d : Fin 2048) (f : Fin 8192) : idx_main_v7 (ix2 d f) = ix2 (0 : Fin 1) f :=
  funext fun a => Fin.ext (by match a with | ⟨0, _⟩ => rfl | ⟨1, _⟩ => rfl)

theorem idx13_ix2 (d : Fin 2048) (f : Fin 8192) : idx_main_v13 (ix2 d f) = ix2 (0 : Fin 1) f :=
  funext fun a => Fin.ext (by match a with | ⟨0, _⟩ => rfl | ⟨1, _⟩ => rfl)

theorem idx2_ix2 (f : Fin 8192) : idx_main_v2 (ix2 (0 : Fin 1) f) = ix1 f :=
  funext fun a => Fin.ext (by match a with | ⟨0, _⟩ => rfl)

theorem lidx30_ix3 (b : Fin 4) (s : Fin 4096) (f : Fin 8192) (k : Fin 2048) : lidx_main_v30 (ix3 b s f) k = ix3 b s k :=
  funext fun a => Fin.ext (by match a with | ⟨0, _⟩ => rfl | ⟨1, _⟩ => rfl | ⟨2, _⟩ => rfl)

theorem ridx30_ix3 (b : Fin 4) (s : Fin 4096) (f : Fin 8192) (k : Fin 2048) : ridx_main_v30 (ix3 b s f) k = ix2 k f :=
  funext fun a => Fin.ext (by match a with | ⟨0, _⟩ => rfl | ⟨1, _⟩ => rfl)

theorem idx31_32_ix3 (b : Fin 4) (s : Fin 4096) (f : Fin 8192) : idx_main_v31 (idx_main_v32 (ix3 b s f)) = ix1 f :=
  funext fun a => Fin.ext (by match a with | ⟨0, _⟩ => rfl)

/-! ## The bounds -/

/-- Input row (b, s) with coordinate k put back on the contracted axis is (b, s, k). -/
theorem lift_row (h : S4x4096x2048.Reduces [2] S4x4096) (b : Fin 4) (s : Fin 4096) (k : Fin (S4x4096x2048.size 2)) :
    h.lift (ix2 b s) k = ix3 b s (⟨k.val, k.isLt⟩ : Fin 2048) := by
  funext c; apply Fin.ext
  fin_cases c <;> rfl

/-- Weight column f with coordinate k put back on the contracted axis is (k, f). -/
theorem lift_col (h : S2048x8192.Reduces [0] S8192) (f : Fin 8192) (k : Fin (S2048x8192.size 0)) :
    h.lift (ix1 f) k = ix2 (⟨k.val, k.isLt⟩ : Fin 2048) f := by
  funext c; apply Fin.ext
  fin_cases c <;> rfl

/-- The reference's bound of input row (b, s). -/
theorem row_bound (X : (⟨S4x4096x2048, .f32⟩ : BufTy).Contents (Elt Ideal)) (b : Fin 4) (s : Fin 4096) :
    val_main_v16 (F := Ideal) X (ix2 b s) + Ideal.ofBits .f32 0x34000000#32 = bound (fun k : Fin 2048 => X (ix3 b s k)) := by
  have h : S4x4096x2048.Reduces [2] S4x4096 := by decide
  unfold val_main_v16 bound
  rw [Host.reduce_eq_fold_single FloatOps.maximumf _ _ reducesTo_S4x4096x2048_S4x4096_d2 h h_S_]
  refine congrArg (· + Ideal.ofBits .f32 0x34000000#32) ?_
  refine congrArg (fun g => Finset.fold max (Ideal.ofBits .f32 0xFF800000#32) g Finset.univ) (funext fun k => ?_)
  show max (X (h.lift (ix2 b s) k)) (-(X (h.lift (ix2 b s) k))) = _
  rw [lift_row]
  rfl

/-- The reference's bound of weight column f. -/
theorem col_bound (W : (⟨S2048x8192, .f32⟩ : BufTy).Contents (Elt Ideal)) (f : Fin 8192) :
    val_main_v1 (F := Ideal) W (ix1 f) + Ideal.ofBits .f32 0x34000000#32 = bound (fun k : Fin 2048 => W (ix2 k f)) := by
  have h : S2048x8192.Reduces [0] S8192 := by decide
  unfold val_main_v1 bound
  rw [Host.reduce_eq_fold_single FloatOps.maximumf _ _ reducesTo_S2048x8192_S8192_d0 h h_S_]
  refine congrArg (· + Ideal.ofBits .f32 0x34000000#32) ?_
  refine congrArg (fun g => Finset.fold max (Ideal.ofBits .f32 0xFF800000#32) g Finset.univ) (funext fun k => ?_)
  show max (W (h.lift (ix1 f) k)) (-(W (h.lift (ix1 f) k))) = _
  rw [lift_col]
  rfl

/-! ## The binarized operands -/

/-- The reciprocal of input row (b, s)'s bound, as the reference keeps it in its [4, 4096, 1] array. -/
theorem row_scale (X : (⟨S4x4096x2048, .f32⟩ : BufTy).Contents (Elt Ideal)) (b : Fin 4) (s : Fin 4096) :
    val_main_v21 (F := Ideal) X (ix3 b s (0 : Fin 1))
      = Ideal.div (Ideal.ofBits .f32 0x3F800000#32) (bound fun k : Fin 2048 => X (ix3 b s k)) := by
  rw [val_main_v21_apply, val_main_v20_apply, val_main_cst_7_apply, val_main_v19_apply, val_main_v17_apply,
    val_main_v18_apply, val_main_cst_6_apply, idx17_ix3 b s]
  show Ideal.div (Ideal.ofBits .f32 0x3F800000#32) (val_main_v16 (F := Ideal) X (ix2 b s) + Ideal.ofBits .f32 0x34000000#32) = _
  rw [row_bound X b s]

/-- The reciprocal of weight column f's bound, as the reference keeps it in its [1, 8192] array. -/
theorem col_scale (W : (⟨S2048x8192, .f32⟩ : BufTy).Contents (Elt Ideal)) (f : Fin 8192) :
    val_main_v6 (F := Ideal) W (ix2 (0 : Fin 1) f)
      = Ideal.div (Ideal.ofBits .f32 0x3F800000#32) (bound fun k : Fin 2048 => W (ix2 k f)) := by
  rw [val_main_v6_apply, val_main_v5_apply, val_main_cst_1_apply, val_main_v4_apply, val_main_v2_apply,
    val_main_v3_apply, val_main_cst_0_apply, idx2_ix2 f]
  show Ideal.div (Ideal.ofBits .f32 0x3F800000#32) (val_main_v1 (F := Ideal) W (ix1 f) + Ideal.ofBits .f32 0x34000000#32) = _
  rw [col_bound W f]

/-- The reference's binarized input at (b, s, d). -/
theorem input_entry (X : (⟨S4x4096x2048, .f32⟩ : BufTy).Contents (Elt Ideal)) (b : Fin 4) (s : Fin 4096) (d : Fin 2048) :
    val_main_v29 (F := Ideal) X (ix3 b s d) = binE (X (ix3 b s d)) (bound fun k : Fin 2048 => X (ix3 b s k)) := by
  rw [val_main_v29_apply, val_main_v27_apply, val_main_v25_apply, val_main_v24_apply, val_main_call1_v4_apply,
    val_main_call1_v3_apply, val_main_cst_9_apply, val_main_call1_v2_apply, val_main_call1_v1_apply, val_main_call1_v0_apply,
    val_main_cst_8_apply, val_main_v23_apply, val_main_v22_apply, val_main_v26_apply, val_main_cst_10_apply,
    val_main_v28_apply, idx22_ix3 b s d, idx28_ix3 b s d, row_scale X b s]
  rfl

/-- The reference's binarized weight at (d, f). -/
theorem weight_entry (W : (⟨S2048x8192, .f32⟩ : BufTy).Contents (Elt Ideal)) (d : Fin 2048) (f : Fin 8192) :
    val_main_v14 (F := Ideal) W (ix2 d f) = binE (W (ix2 d f)) (bound fun k : Fin 2048 => W (ix2 k f)) := by
  rw [val_main_v14_apply, val_main_v12_apply, val_main_v10_apply, val_main_v9_apply, val_main_call0_v4_apply,
    val_main_call0_v3_apply, val_main_cst_3_apply, val_main_call0_v2_apply, val_main_call0_v1_apply, val_main_call0_v0_apply,
    val_main_cst_2_apply, val_main_v8_apply, val_main_v7_apply, val_main_v11_apply, val_main_cst_4_apply,
    val_main_v13_apply, idx7_ix2 d f, idx13_ix2 d f, col_scale W f]
  rfl

/-! ## The result -/

/-- The reference's result at (b, s, f). -/
theorem result_apply (X : (⟨S4x4096x2048, .f32⟩ : BufTy).Contents (Elt Ideal)) (W : (⟨S2048x8192, .f32⟩ : BufTy).Contents (Elt Ideal))
    (B : (⟨S8192, .f32⟩ : BufTy).Contents (Elt Ideal)) (b : Fin 4) (s : Fin 4096) (f : Fin 8192) :
    val_main_v33 (F := Ideal) X W B (ix3 b s f)
      = (∑ d : Fin 2048, binE (X (ix3 b s d)) (bound fun k : Fin 2048 => X (ix3 b s k))
            * binE (W (ix2 d f)) (bound fun k : Fin 2048 => W (ix2 k f))) + B (ix1 f) := by
  rw [val_main_v33_apply, val_main_v30_apply, val_main_v32_apply, val_main_v31_apply, idx31_32_ix3]
  show (∑ k : Fin 2048, _) + _ = _
  refine congrArg (· + B (ix1 f)) (Finset.sum_congr rfl fun k _ => ?_)
  rw [lidx30_ix3, ridx30_ix3, input_entry, weight_entry]

end Cert.BiDense.Ref

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelPayload.lean ====
/-
  What the kernel body stores, read at an index.

  At one grid point the body holds a [1024, 2048] block of input signs, a [2048, 512] block of weight signs, a [1024, 1]
  column of row bounds, a [1, 512] row of column bounds and a [1, 512] row of bias.  Entry (p, q) of what it stores is the
  contraction over k of sign (p, k) times sign (k, q) (a matrix product into a zero accumulator), times a quarter, times
  row p's bound, times column q's bound, plus bias q.
-/
import proofs.«175212_j6047313952874_2_alg».proof.Proof.Gen.KernelIdeal.Skeleton
import proofs.«175212_j6047313952874_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.BiDense.Payload

open Cert.KernelIdeal Cert.KernelIdeal.Gen
open Idealize.ShloMosaic Idealize.ShloMosaic.ValueIdx Idealize.ShloMosaic.ColumnLayout

/-- The body's matrix product: [1024, 2048] × [2048, 512], contracting the left operand's axis 1 with the right's axis 0. -/
abbrev blockDot : DotDims S1024x2048 S2048x512 S1024x512 := dot_S1024x2048_S2048x512_S1024x512_1_0_0_1_n_n

theorem lhs_row (i : S1024x512.Idx) (q : blockDot.contr.Idx) : (blockDot.lhsIdx i q 0).val = (i 0).val := by
  unfold DotDims.lhsIdx
  rw [dif_neg (show ¬(0 : Fin S1024x2048.rank) ∈ blockDot.lhsBatch by decide),
    dif_pos (show (0 : Fin S1024x2048.rank) ∈ blockDot.lhsNonContracting by decide)]
  rfl

theorem lhs_contr (i : S1024x512.Idx) (q : blockDot.contr.Idx) : (blockDot.lhsIdx i q 1).val = (q ⟨0, by decide⟩).val :=
  blockDot.lhsIdx_val_of_single rfl i q

theorem rhs_contr (i : S1024x512.Idx) (q : blockDot.contr.Idx) : (blockDot.rhsIdx i q 0).val = (q ⟨0, by decide⟩).val :=
  blockDot.rhsIdx_val_of_single rfl i q

theorem rhs_col (i : S1024x512.Idx) (q : blockDot.contr.Idx) : (blockDot.rhsIdx i q 1).val = (i 1).val := by
  unfold DotDims.rhsIdx
  rw [dif_neg (show ¬(1 : Fin S2048x512.rank) ∈ blockDot.rhsBatch by decide),
    dif_pos (show (1 : Fin S2048x512.rank) ∈ blockDot.rhsNonContracting by decide)]
  rfl

/-- The block product into a zero accumulator, at (p, q), is the sum over k of left (p, k) times right (k, q). -/
theorem blockProduct_apply (x0 : FVec Ideal S1024x2048 .bf16) (x1 : FVec Ideal S2048x512 .bf16) (p : Fin 1024) (q : Fin 512) :
    FloatOps.matmul blockDot none x0 x1 (constant S1024x512 .f32 0x00000000#32) (ix2 p q)
      = ∑ k : Fin 2048, x0 (ix2 p k) * x1 (ix2 k q) := by
  rw [Ideal.matmul_constant_zero_apply, ← Equiv.sum_comp (contrEquiv1 blockDot 2048 rfl rfl).symm]
  refine Finset.sum_congr rfl fun k _ => ?_
  have hk := contrEquiv1_symm_val blockDot 2048 rfl rfl k
  have el : blockDot.lhsIdx (ix2 p q) ((contrEquiv1 blockDot 2048 rfl rfl).symm k) = ix2 p k := funext fun a => Fin.ext (by
    match a with
    | ⟨0, _⟩ => exact lhs_row _ _
    | ⟨1, _⟩ => exact (lhs_contr _ _).trans hk)
  have er : blockDot.rhsIdx (ix2 p q) ((contrEquiv1 blockDot 2048 rfl rfl).symm k) = ix2 k q := funext fun a => Fin.ext (by
    match a with
    | ⟨0, _⟩ => exact (rhs_contr _ _).trans hk
    | ⟨1, _⟩ => exact rhs_col _ _)
  rw [el, er]

/-- THE STORED BLOCK at (p, q). -/
theorem stored_apply (x0 : FVec Ideal S1024x2048 .bf16) (x1 : FVec Ideal S2048x512 .bf16) (x2 : FVec Ideal S1024x1 .f32)
    (x3 : FVec Ideal S1x512 .f32) (x4 : FVec Ideal S1x512 .f32) (p : Fin 1024) (q : Fin 512) :
    k0_pay1 (F := Ideal) x0 x1 x2 x3 x4 (ix2 p q)
      = (((∑ k : Fin 2048, x0 (ix2 p k) * x1 (ix2 k q)) * Ideal.ofBits .f32 0x3E800000#32) * x2 (ix2 p (0 : Fin 1)))
          * x3 (ix2 (0 : Fin 1) q) + x4 (ix2 (0 : Fin 1) q) := by
  unfold k0_pay1
  simp only [shapeCast_self]
  rw [addf_apply, mulf_apply, mulf_apply, mulf_apply, broadcastTo_1b_ab_apply, broadcastTo_1b_ab_apply,
    broadcastTo_a1_ab_apply, broadcast_apply]
  refine congrArg (fun z => ((z * Ideal.ofBits .f32 0x3E800000#32) * x2 (ix2 p (0 : Fin 1))) * x3 (ix2 (0 : Fin 1) q)
    + x4 (ix2 (0 : Fin 1) q)) ?_
  exact blockProduct_apply x0 x1 p q

end Cert.BiDense.Payload

end
-- ==== Proof.KernelBlocks.lean ====
/-
  From what each grid point writes back to the whole result array.

  The grid has 16 × 16 points; point (i, j) is launched on rows [1024·i, 1024·i + 1024) of the input-sign array and of the
  row-bound column, on columns [512·j, 512·j + 512) of the weight-sign array, the column-bound row and the bias row, and
  writes back block (i, j) of the [16384, 8192] result.  Every entry of that block is therefore one function of the five
  whole arrays at the entry's own row and column, and the 256 blocks tile the result; so the result array ends holding that
  function everywhere.
-/
import proofs.«175212_j6047313952874_2_alg».proof.Proof.Gen.KernelIdeal.Frame
import proofs.«175212_j6047313952874_2_alg».proof.Proof.KernelPayload
import Idealize.ShloMosaic.Lib.Pipeline.Value
import Idealize.ShloMosaic.Lib.ValueIdx

noncomputable section

namespace Cert.BiDense.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

theorem zeroOffsets : (![0, 0] : Fin 2 → Nat) = fun _ => 0 := funext fun a => by fin_cases a <;> rfl

/-- Entry (r, f) of the result as a function of the five arrays. -/
def entry (sx : S16384x2048.Idx → EReal) (sw : S2048x8192.Idx → EReal) (ab : S16384x1.Idx → EReal) (wb : S1x8192.Idx → EReal)
    (bi : S1x8192.Idx → EReal) (r : Fin 16384) (f : Fin 8192) : EReal :=
  (((∑ k : Fin 2048, sx (ix2 r k) * sw (ix2 k f)) * Ideal.ofBits .f32 0x3E800000#32) * ab (ix2 r (0 : Fin 1)))
    * wb (ix2 (0 : Fin 1) f) + bi (ix2 (0 : Fin 1) f)

/-- The whole result array. -/
def whole (sx : S16384x2048.Idx → EReal) (sw : S2048x8192.Idx → EReal) (ab : S16384x1.Idx → EReal) (wb : S1x8192.Idx → EReal)
    (bi : S1x8192.Idx → EReal) : S16384x8192.Idx → EReal :=
  fun i => entry sx sw ab wb bi ⟨(i 0).val, (i 0).isLt⟩ ⟨(i 1).val, (i 1).isLt⟩

/-- The printed index maps, decided over the grid: the row block of windows 0 and 2 and the column block of windows 1, 3
    and 4 are the output's, their other block index is zero, and the output's block indices are below 16. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 15 :=
  (by decide +kernel : ∀ t : Fin grid0.N, _)

/-- The grid is walked row-major: point t writes block (t / 16, t % 16). -/
theorem idx_of_point : ∀ t : Fin cfg0.N, win0_5.index t (0 : Fin 2) = t.val / 16 ∧ win0_5.index t (1 : Fin 2) = t.val % 16 :=
  (by decide +kernel : ∀ t : Fin grid0.N, _)

/-! ## Each window's block, read where the output block says

Stated over the window's array as a variable: block t of an array, at an index of the block, is the array at the block's
offset plus the index. -/

theorem blockRead0 (A : S16384x2048.Idx → EReal) (t : Fin cfg0.N) (p : Fin 1024) (k : Fin 2048) (r : Fin 16384)
    (hr : r.val = win0_5.index t (0 : Fin 2) * 1024 + p.val) :
    ((cfg0.win 0).blk t).view.read (Elt Ideal) A (ix2 p k) = A (ix2 r k) := by
  obtain ⟨e00, e01, e10, e11, e20, e21, e30, e31, e40, e41, b0, b1⟩ := idx_facts t
  show A (((cfg0.win 0).blk t).view.emb (ix2 p k)) = A (ix2 r k)
  refine congrArg A (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

theorem blockRead1 (A : S2048x8192.Idx → EReal) (t : Fin cfg0.N) (k : Fin 2048) (q : Fin 512) (f : Fin 8192)
    (hf : f.val = win0_5.index t (1 : Fin 2) * 512 + q.val) :
    ((cfg0.win 1).blk t).view.read (Elt Ideal) A (ix2 k q) = A (ix2 k f) := by
  obtain ⟨e00, e01, e10, e11, e20, e21, e30, e31, e40, e41, b0, b1⟩ := idx_facts t
  show A (((cfg0.win 1).blk t).view.emb (ix2 k q)) = A (ix2 k f)
  refine congrArg A (funext fun a => Fin.ext ?_)
  match a with
  | ⟨0, _⟩ => show win0_1.index t (0 : Fin 2) * 2048 + 1 * k.val = k.val; omega
  | ⟨1, _⟩ => show win0_1.index t (1 : Fin 2) * 512 + 1 * q.val = f.val; omega

theorem blockRead2 (A : S16384x1.Idx → EReal) (t : Fin cfg0.N) (p : Fin 1024) (u : Fin 1) (r : Fin 16384)
    (hr : r.val = win0_5.index t (0 : Fin 2) * 1024 + p.val) :
    ((cfg0.win 2).blk t).view.read (Elt Ideal) A (ix2 p u) = A (ix2 r u) := by
  obtain ⟨e00, e01, e10, e11, e20, e21, e30, e31, e40, e41, b0, b1⟩ := idx_facts t
  show A (((cfg0.win 2).blk t).view.emb (ix2 p u)) = A (ix2 r u)
  refine congrArg A (funext fun a => Fin.ext ?_)
  match a with
  | ⟨0, _⟩ => show win0_2.index t (0 : Fin 2) * 1024 + 1 * p.val = r.val; omega
  | ⟨1, _⟩ => show win0_2.index t (1 : Fin 2) * 1 + 1 * u.val = u.val; omega

theorem blockRead3 (A : S1x8192.Idx → EReal) (t : Fin cfg0.N) (u : Fin 1) (q : Fin 512) (f : Fin 8192)
    (hf : f.val = win0_5.index t (1 : Fin 2) * 512 + q.val) :
    ((cfg0.win 3).blk t).view.read (Elt Ideal) A (ix2 u q) = A (ix2 u f) := by
  obtain ⟨e00, e01, e10, e11, e20, e21, e30, e31, e40, e41, b0, b1⟩ := idx_facts t
  show A (((cfg0.win 3).blk t).view.emb (ix2 u q)) = A (ix2 u f)
  refine congrArg A (funext fun a => Fin.ext ?_)
  match a with
  | ⟨0, _⟩ => show win0_3.index t (0 : Fin 2) * 1 + 1 * u.val = u.val; omega
  | ⟨1, _⟩ => show win0_3.index t (1 : Fin 2) * 512 + 1 * q.val = f.val; omega

theorem blockRead4 (A : S1x8192.Idx → EReal) (t : Fin cfg0.N) (u : Fin 1) (q : Fin 512) (f : Fin 8192)
    (hf : f.val = win0_5.index t (1 : Fin 2) * 512 + q.val) :
    ((cfg0.win 4).blk t).view.read (Elt Ideal) A (ix2 u q) = A (ix2 u f) := by
  obtain ⟨e00, e01, e10, e11, e20, e21, e30, e31, e40, e41, b0, b1⟩ := idx_facts t
  show A (((cfg0.win 4).blk t).view.emb (ix2 u q)) = A (ix2 u f)
  refine congrArg A (funext fun a => Fin.ext ?_)
  match a with
  | ⟨0, _⟩ => show win0_4.index t (0 : Fin 2) * 1 + 1 * u.val = u.val; omega
  | ⟨1, _⟩ => show win0_4.index t (1 : Fin 2) * 512 + 1 * q.val = f.val; omega

/-! The same of the blocks the body is launched on. -/

theorem read0 (t : Fin cfg0.N) (p : Fin 1024) (k : Fin 2048) (r : Fin 16384)
    (hr : r.val = win0_5.index t (0 : Fin 2) * 1024 + p.val) : iblk m c 0 t (ix2 p k) = V m c main_v18 (ix2 r k) :=
  blockRead0 (V m c main_v18) t p k r hr

theorem read1 (t : Fin cfg0.N) (k : Fin 2048) (q : Fin 512) (f : Fin 8192)
    (hf : f.val = win0_5.index t (1 : Fin 2) * 512 + q.val) : iblk m c 1 t (ix2 k q) = V m c main_v9 (ix2 k f) :=
  blockRead1 (V m c main_v9) t k q f hf

theorem read2 (t : Fin cfg0.N) (p : Fin 1024) (u : Fin 1) (r : Fin 16384)
    (hr : r.val = win0_5.index t (0 : Fin 2) * 1024 + p.val) : iblk m c 2 t (ix2 p u) = V m c main_v14 (ix2 r u) :=
  blockRead2 (V m c main_v14) t p u r hr

theorem read3 (t : Fin cfg0.N) (u : Fin 1) (q : Fin 512) (f : Fin 8192)
    (hf : f.val = win0_5.index t (1 : Fin 2) * 512 + q.val) : iblk m c 3 t (ix2 u q) = V m c main_v5 (ix2 u f) :=
  blockRead3 (V m c main_v5) t u q f hf

theorem read4 (t : Fin cfg0.N) (u : Fin 1) (q : Fin 512) (f : Fin 8192)
    (hf : f.val = win0_5.index t (1 : Fin 2) * 512 + q.val) : iblk m c 4 t (ix2 u q) = V m c main_v19 (ix2 u f) :=
  blockRead4 (V m c main_v19) t u q f hf

/-- The stored block's entry (p, q), over the five blocks as variables, is the whole result's entry at the block's row and
    column once each block read is the array read there. -/
theorem stored_entry (sx : S16384x2048.Idx → EReal) (sw : S2048x8192.Idx → EReal) (ab : S16384x1.Idx → EReal)
    (wb : S1x8192.Idx → EReal) (bi : S1x8192.Idx → EReal)
    (x0 : FVec Ideal S1024x2048 .bf16) (x1 : FVec Ideal S2048x512 .bf16) (x2 : FVec Ideal S1024x1 .f32)
    (x3 : FVec Ideal S1x512 .f32) (x4 : FVec Ideal S1x512 .f32) (p : Fin 1024) (q : Fin 512) (r : Fin 16384) (f : Fin 8192)
    (h0 : ∀ k : Fin 2048, x0 (ix2 p k) = sx (ix2 r k)) (h1 : ∀ k : Fin 2048, x1 (ix2 k q) = sw (ix2 k f))
    (h2 : x2 (ix2 p (0 : Fin 1)) = ab (ix2 r (0 : Fin 1))) (h3 : x3 (ix2 (0 : Fin 1) q) = wb (ix2 (0 : Fin 1) f))
    (h4 : x4 (ix2 (0 : Fin 1) q) = bi (ix2 (0 : Fin 1) f)) :
    k0_pay1 (F := Ideal) x0 x1 x2 x3 x4 (ix2 p q) = entry sx sw ab wb bi r f := by
  rw [Payload.stored_apply x0 x1 x2 x3 x4 p q, h2, h3, h4, Finset.sum_congr rfl fun k _ => by rw [h0 k, h1 k]]
  rfl

/-- The output window's blocks are never cut at the array's end: what is written back is all of what the body left. -/
theorem cut_block (t : Fin cfg0.N) (X : S1024x512.Idx → EReal) : (cfg0.win 5).cut (grid0.coords t) X = X := rfl

/-- WHAT POINT t WRITES BACK is block t of the whole result. -/
theorem flushed_eq (t : Fin cfg0.N) :
    (dats m 0 c).flushed 5 t = ((cfg0.win 5).blk t).view.read (Elt Ideal)
      (whole (V m c main_v18) (V m c main_v9) (V m c main_v14) (V m c main_v5) (V m c main_v19)) := by
  show (cfg0.win 5).cut (grid0.coords t) ((dats m 0 c).after 5 t) = _
  rw [after0_5]
  unfold out0_5
  rw [View.canon_unit_zero zeroOffsets]
  simp only [View.ld_unit_zero (S := S1024x2048) zeroOffsets, View.ld_unit_zero (S := S2048x512) zeroOffsets,
    View.ld_unit_zero (S := S1024x1) zeroOffsets, View.ld_unit_zero (S := S1x512) zeroOffsets]
  rw [cut_block]
  obtain ⟨e00, e01, e10, e11, e20, e21, e30, e31, e40, e41, b0, b1⟩ := idx_facts t
  funext y
  obtain ⟨p, q, rfl⟩ : ∃ (p : Fin 1024) (q : Fin 512), y = ix2 p q := ⟨y 0, y 1, eq_ix2 y⟩
  have hp : p.val < 1024 := p.isLt
  have hq : q.val < 512 := q.isLt
  obtain ⟨r, hr⟩ : ∃ r : Fin 16384, r.val = win0_5.index t (0 : Fin 2) * 1024 + p.val := ⟨⟨_, by omega⟩, rfl⟩
  obtain ⟨f, hf⟩ : ∃ f : Fin 8192, f.val = win0_5.index t (1 : Fin 2) * 512 + q.val := ⟨⟨_, by omega⟩, rfl⟩
  refine (stored_entry (V m c main_v18) (V m c main_v9) (V m c main_v14) (V m c main_v5) (V m c main_v19)
    (iblk m c 0 t) (iblk m c 1 t) (iblk m c 2 t) (iblk m c 3 t) (iblk m c 4 t) p q r f
    (fun k => read0 m c t p k r hr) (fun k => read1 m c t k q f hf) (read2 m c t p 0 r hr) (read3 m c t 0 q f hf)
    (read4 m c t 0 q f hf)).trans ?_
  show entry (V m c main_v18) (V m c main_v9) (V m c main_v14) (V m c main_v5) (V m c main_v19) r f
    = entry (V m c main_v18) (V m c main_v9) (V m c main_v14) (V m c main_v5) (V m c main_v19)
        ⟨(((cfg0.win 5).blk t).view.emb (ix2 p q) 0).val, (((cfg0.win 5).blk t).view.emb (ix2 p q) 0).isLt⟩
        ⟨(((cfg0.win 5).blk t).view.emb (ix2 p q) 1).val, (((cfg0.win 5).blk t).view.emb (ix2 p q) 1).isLt⟩
  have hrow : (⟨(((cfg0.win 5).blk t).view.emb (ix2 p q) 0).val, (((cfg0.win 5).blk t).view.emb (ix2 p q) 0).isLt⟩ : Fin 16384) = r :=
    Fin.ext (by show win0_5.index t (0 : Fin 2) * 1024 + 1 * p.val = r.val; omega)
  have hcol : (⟨(((cfg0.win 5).blk t).view.emb (ix2 p q) 1).val, (((cfg0.win 5).blk t).view.emb (ix2 p q) 1).isLt⟩ : Fin 8192) = f :=
    Fin.ext (by show win0_5.index t (1 : Fin 2) * 512 + 1 * q.val = f.val; omega)
  rw [hrow, hcol]

/-- An index of the result is in point t's block iff each coordinate is in the block's range on its axis. -/
theorem mem_blk (t : Fin cfg0.N) (i : S16384x8192.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v20).slice (win0_5.rect t)).set ↔ _
  rw [View.set_slice_whole, Rect.mem_set_unit]
  exact Iff.rfl

/-- Every index of the result is in some point's block: row r is in row block r / 1024, column f in column block f / 512,
    and that block is point 16·(r / 1024) + f / 512's. -/
theorem cover (i : S16384x8192.Idx) :
    ∃ t : Fin cfg0.N, (cfg0.win 5).flush t = true ∧ i ∈ ((cfg0.win 5).blk t).view.set := by
  have hi0 : (i 0).val < 16384 := (i 0).isLt
  have hi1 : (i 1).val < 8192 := (i 1).isLt
  have hN : cfg0.N = 256 := N_0
  obtain ⟨t, ht⟩ : ∃ t : Fin cfg0.N, t.val = (i 0).val / 1024 * 16 + (i 1).val / 512 := ⟨⟨_, by omega⟩, rfl⟩
  obtain ⟨q0, q1⟩ := idx_of_point t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- THE RESULT ARRAY after the run. -/
theorem final : (dats m 0 c).arrAt 5 cfg0.N
    = whole (V m c main_v18) (V m c main_v9) (V m c main_v14) (V m c main_v5) (V m c main_v19) :=
  (dats m 0 c).arrAt_eq_of_cover 5 _ (fun t _ => flushed_eq m c t) cover

end Cert.BiDense.Blocks

end
-- ==== Proof.KernelArrays.lean ====
/-
  The arrays the kernel region is launched on, read at an index.

  Before the region the host reshapes the [4, 4096, 2048] input to [16384, 2048] (row b·4096 + s is input row (b, s)), takes
  the sign of every entry of it and of the weights (+1 where 0 ≤ entry, otherwise -1), takes each input row's and each weight
  column's bound (largest magnitude plus a constant) as a [16384, 1] column and a [1, 8192] row, and views the bias as one row.
-/
import proofs.«175212_j6047313952874_2_alg».proof.Proof.Gen.KernelIdeal.Frame
import proofs.«175212_j6047313952874_2_alg».proof.Proof.BinarizeLaw
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

noncomputable section

namespace Cert.BiDense.Arrays

open Cert.KernelIdeal Cert.KernelIdeal.Gen
open Idealize.ShloMosaic Idealize.ShloMosaic.TcCoe Idealize.SL.Sem Idealize.ShloMosaic.StableHlo Idealize.ShloMosaic.ValueIdx
open Cert.BiDense

variable (m : (ℓ : Loc nD τ sig) → Buf (Elt Ideal) ℓ) (c : Dev nD)

/-- Row b·4096 + s of the reshaped input. -/
def row (b : Fin 4) (s : Fin 4096) : Fin 16384 := ⟨b.val * 4096 + s.val, by have := b.isLt; have := s.isLt; omega⟩

/-! ## The arrays as terms of the arguments -/

/-- The signs of the reshaped input. -/
def signX (X : S4x4096x2048.Idx → EReal) : S16384x2048.Idx → EReal :=
  truncf .bf16 (select (cmpf .oge (shapeCast S16384x2048 X shapeCasts_S4x4096x2048_S16384x2048)
      (broadcastInDim S16384x2048 ![] bcast_S_S16384x2048 (constant (F := Ideal) S_ .f32 0x00000000#32)))
    (broadcastInDim S16384x2048 ![] bcast_S_S16384x2048 (constant (F := Ideal) S_ .f32 0x3F800000#32))
    (broadcastInDim S16384x2048 ![] bcast_S_S16384x2048 (constant (F := Ideal) S_ .f32 0xBF800000#32))) bitsLt_bf16_f32

/-- The signs of the weights. -/
def signW (W : S2048x8192.Idx → EReal) : S2048x8192.Idx → EReal :=
  truncf .bf16 (select (cmpf .oge W
      (broadcastInDim S2048x8192 ![] bcast_S_S2048x8192 (constant (F := Ideal) S_ .f32 0x00000000#32)))
    (broadcastInDim S2048x8192 ![] bcast_S_S2048x8192 (constant (F := Ideal) S_ .f32 0x3F800000#32))
    (broadcastInDim S2048x8192 ![] bcast_S_S2048x8192 (constant (F := Ideal) S_ .f32 0xBF800000#32))) bitsLt_bf16_f32

/-- The input rows' bounds, a column. -/
def boundX (X : S4x4096x2048.Idx → EReal) : S16384x1.Idx → EReal :=
  addf (broadcastInDim S16384x1 ![0] bcast_S16384_S16384x1_0
      (Host.reduce FloatOps.maximumf (Host.absf (F := Ideal) (shapeCast S16384x2048 X shapeCasts_S4x4096x2048_S16384x2048))
        (constant (F := Ideal) S_ .f32 0xFF800000#32) reducesTo_S16384x2048_S16384_d1 h_S_))
    (broadcastInDim S16384x1 ![] bcast_S_S16384x1 (constant (F := Ideal) S_ .f32 0x34000000#32))

/-- The weight columns' bounds, a row. -/
def boundW (W : S2048x8192.Idx → EReal) : S1x8192.Idx → EReal :=
  addf (broadcastInDim S1x8192 ![1] bcast_S8192_S1x8192_1
      (Host.reduce FloatOps.maximumf (Host.absf (F := Ideal) W)
        (constant (F := Ideal) S_ .f32 0xFF800000#32) reducesTo_S2048x8192_S8192_d0 h_S_))
    (broadcastInDim S1x8192 ![] bcast_S_S1x8192 (constant (F := Ideal) S_ .f32 0x34000000#32))

theorem V_signX : (V m c main_v18 : S16384x2048.Idx → EReal) = signX (m ((c : Thread nD τ).loc main_arg0)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

theorem V_signW : (V m c main_v9 : S2048x8192.Idx → EReal) = signW (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

theorem V_boundX : (V m c main_v14 : S16384x1.Idx → EReal) = boundX (m ((c : Thread nD τ).loc main_arg0)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

theorem V_boundW : (V m c main_v5 : S1x8192.Idx → EReal) = boundW (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

theorem V_biasRow : (V m c main_v19 : S1x8192.Idx → EReal)
    = shapeCast S1x8192 (m ((c : Thread nD τ).loc main_arg2) : S8192.Idx → EReal) shapeCasts_S8192_S1x8192 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-! ## The arrays read at an index -/

/-- The reshaped input at (b·4096 + s, d) is the input at (b, s, d): both sit at row-major position (b·4096 + s)·2048 + d. -/
theorem reshape_apply (X : S4x4096x2048.Idx → EReal) (b : Fin 4) (s : Fin 4096) (d : Fin 2048) :
    shapeCast S16384x2048 X shapeCasts_S4x4096x2048_S16384x2048 (ix2 (row b s) d) = X (ix3 b s d) :=
  shapeCast_apply X _ _ _ (by
    rw [Shape.rowMajor_val_two, Shape.rowMajor_val_three]
    rfl)

/-- The sign array at (b·4096 + s, d) is the sign of the input at (b, s, d). -/
theorem signX_apply (X : S4x4096x2048.Idx → EReal) (b : Fin 4) (s : Fin 4096) (d : Fin 2048) :
    signX X (ix2 (row b s) d) = sgnE (X (ix3 b s d)) := by
  unfold signX sgnE
  rw [truncf_apply, select_apply, cmpf_apply, broadcastInDim_scalar_apply, broadcastInDim_scalar_apply,
    broadcastInDim_scalar_apply, reshape_apply]
  rfl

/-- The weights' sign array at (d, f) is the sign of the weight there. -/
theorem signW_apply (W : S2048x8192.Idx → EReal) (d : Fin 2048) (f : Fin 8192) :
    signW W (ix2 d f) = sgnE (W (ix2 d f)) := by
  unfold signW sgnE
  rw [truncf_apply, select_apply, cmpf_apply, broadcastInDim_scalar_apply, broadcastInDim_scalar_apply,
    broadcastInDim_scalar_apply]
  rfl

/-- Reshaped-input row r with coordinate k put back on the contracted axis is (r, k). -/
theorem lift_row2 (h : S16384x2048.Reduces [1] S16384) (r : Fin 16384) (k : Fin (S16384x2048.size 1)) :
    h.lift (ix1 r) k = ix2 r (⟨k.val, k.isLt⟩ : Fin 2048) := by
  funext a; apply Fin.ext
  fin_cases a <;> rfl

/-- Weight column f with coordinate k put back on the contracted axis is (k, f). -/
theorem lift_col (h : S2048x8192.Reduces [0] S8192) (f : Fin 8192) (k : Fin (S2048x8192.size 0)) :
    h.lift (ix1 f) k = ix2 (⟨k.val, k.isLt⟩ : Fin 2048) f := by
  funext a; apply Fin.ext
  fin_cases a <;> rfl

/-- The bound column at row b·4096 + s is the bound of input row (b, s). -/
theorem boundX_apply (X : S4x4096x2048.Idx → EReal) (b : Fin 4) (s : Fin 4096) :
    boundX X (ix2 (row b s) (0 : Fin 1)) = bound (fun k : Fin 2048 => X (ix3 b s k)) := by
  have h : S16384x2048.Reduces [1] S16384 := by decide
  unfold boundX bound
  rw [addf_apply, broadcastInDim_scalar_apply,
    broadcastInDim_apply ![0] bcast_S16384_S16384x1_0 _ (ix2 (row b s) (0 : Fin 1)) (ix1 (row b s)) (fun a => match a with
      | ⟨0, _⟩ => by show (row b s).val = if (16384 : Nat) = 1 then 0 else (row b s).val; rw [if_neg (by decide)]),
    Host.reduce_eq_fold_single FloatOps.maximumf _ _ reducesTo_S16384x2048_S16384_d1 h h_S_]
  refine congrArg (· + Ideal.ofBits .f32 0x34000000#32) ?_
  refine congrArg (fun g => Finset.fold max (Ideal.ofBits .f32 0xFF800000#32) g Finset.univ) (funext fun k => ?_)
  show max (shapeCast S16384x2048 X shapeCasts_S4x4096x2048_S16384x2048 (h.lift (ix1 (row b s)) k))
      (-(shapeCast S16384x2048 X shapeCasts_S4x4096x2048_S16384x2048 (h.lift (ix1 (row b s)) k))) = _
  rw [lift_row2, reshape_apply]
  rfl

/-- The bound row at column f is the bound of weight column f. -/
theorem boundW_apply (W : S2048x8192.Idx → EReal) (f : Fin 8192) :
    boundW W (ix2 (0 : Fin 1) f) = bound (fun k : Fin 2048 => W (ix2 k f)) := by
  have h : S2048x8192.Reduces [0] S8192 := by decide
  unfold boundW bound
  rw [addf_apply, broadcastInDim_scalar_apply,
    broadcastInDim_apply ![1] bcast_S8192_S1x8192_1 _ (ix2 (0 : Fin 1) f) (ix1 f) (fun a => match a with
      | ⟨0, _⟩ => by show f.val = if (8192 : Nat) = 1 then 0 else f.val; rw [if_neg (by decide)]),
    Host.reduce_eq_fold_single FloatOps.maximumf _ _ reducesTo_S2048x8192_S8192_d0 h h_S_]
  refine congrArg (· + Ideal.ofBits .f32 0x34000000#32) ?_
  refine congrArg (fun g => Finset.fold max (Ideal.ofBits .f32 0xFF800000#32) g Finset.univ) (funext fun k => ?_)
  show max (W (h.lift (ix1 f) k)) (-(W (h.lift (ix1 f) k))) = _
  rw [lift_col]
  rfl

/-- The bias row at column f is the bias at f. -/
theorem biasRow_apply (B : S8192.Idx → EReal) (f : Fin 8192) :
    shapeCast S1x8192 B shapeCasts_S8192_S1x8192 (ix2 (0 : Fin 1) f) = B (ix1 f) :=
  shapeCast_a_1a_apply B _ 0 f

end Cert.BiDense.Arrays

end
-- ==== Proof.KernelResult.lean ====
/-
  The kernel's result.

  After the region the host regroups the [16384, 8192] result as [4, 4096, 8192]: entry (b, s, f) is entry (b·4096 + s, f) of
  the region's array, which is the contraction of the signs of input row (b, s) with the signs of weight column f, times a
  quarter, times the two bounds, plus bias f.
-/
import proofs.«175212_j6047313952874_2_alg».proof.Proof.KernelBlocks
import proofs.«175212_j6047313952874_2_alg».proof.Proof.KernelArrays
import Idealize.ShloMosaic.Lib.StableHlo.Run
import Idealize.ShloMosaic.Lib.Pipeline.Value
import Idealize.ShloMosaic.Lib.ValueIdx

noncomputable section

namespace Cert.BiDense.Result

open Cert.KernelIdeal Cert.KernelIdeal.Gen
open Idealize.ShloMosaic Idealize.ShloMosaic.TcCoe Idealize.SL.Sem Idealize.ShloMosaic.StableHlo Idealize.ShloMosaic.ValueIdx
open Cert.BiDense Cert.BiDense.Arrays Cert.BiDense.Blocks

variable (m : (ℓ : Loc nD τ sig) → Buf (Elt Ideal) ℓ) (ρ : Dev nD → PrngReg) (c : Dev nD)

/-- The kernel's result as a function of its three arguments. -/
def value (X : S4x4096x2048.Idx → EReal) (W : S2048x8192.Idx → EReal) (B : S8192.Idx → EReal) : S4x4096x8192.Idx → EReal :=
  shapeCast S4x4096x8192
    (whole (signX X) (signW W) (boundX X) (boundW W) (shapeCast S1x8192 B shapeCasts_S8192_S1x8192))
    shapeCasts_S16384x8192_S4x4096x8192

/-- The region's result array as the lines after the region find it. -/
theorem region_array :
    (Pipeline.withArrays (cfgs 0).spec c (V0 m c) (fun w => (dats m 0 c).arrAt w (cfgs 0).N) (Proc.devRef .tc main_v20)
        : S16384x8192.Idx → EReal)
      = whole (V m c main_v18) (V m c main_v9) (V m c main_v14) (V m c main_v5) (V m c main_v19) :=
  (Pipeline.withArrays_arr spec0 launch0.win.arr_inj c _ _ 5).trans (Blocks.final m c)

/-- What @main's result buffer holds after the run. -/
theorem tail_eq : (Pipeline.afterTail₀ cfgs (dats m) 0 (V0 m) [hostOps1] c main_v21 : S4x4096x8192.Idx → EReal)
    = value (m ((c : Thread nD τ).loc main_arg0)) (m ((c : Thread nD τ).loc main_arg1)) (m ((c : Thread nD τ).loc main_arg2)) := by
  unfold Pipeline.afterTail₀
  show StableHlo.after hostOps1 _ (Proc.devRef .tc main_v21) = _
  after_results
  rw [region_array, V_signX, V_signW, V_boundX, V_boundW, V_biasRow]
  rfl

/-- The kernel's result at (b, s, f). -/
theorem value_apply (X : S4x4096x2048.Idx → EReal) (W : S2048x8192.Idx → EReal) (B : S8192.Idx → EReal)
    (b : Fin 4) (s : Fin 4096) (f : Fin 8192) :
    value X W B (ix3 b s f)
      = ((∑ d : Fin 2048, sgnE (X (ix3 b s d)) * sgnE (W (ix2 d f))) * Ideal.ofBits .f32 0x3E800000#32)
          * bound (fun k : Fin 2048 => X (ix3 b s k)) * bound (fun k : Fin 2048 => W (ix2 k f)) + B (ix1 f) := by
  unfold value
  rw [shapeCast_apply _ shapeCasts_S16384x8192_S4x4096x8192 (ix3 b s f) (ix2 (row b s) f) (by
    rw [Shape.rowMajor_val_two, Shape.rowMajor_val_three]; rfl)]
  show entry (signX X) (signW W) (boundX X) (boundW W) (shapeCast S1x8192 B shapeCasts_S8192_S1x8192) (row b s) f = _
  unfold entry
  rw [boundX_apply, boundW_apply, biasRow_apply,
    Finset.sum_congr rfl fun d _ => by rw [signX_apply X b s d, signW_apply W d f]]

/-- THE RUN: every weakly fair execution of the kernel's program terminates with the result buffer at `value` of the
    arguments, the arguments unchanged. -/
theorem run : θ_run defs (onTc (τ := τ) (main (F := Ideal))) ⟨m, fun _ => 0, ρ⟩ (fun r => ∀ c : Dev nD,
      r.2.mem ((c.tc : Thread nD τ).loc main_v21)
        = value (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.BiDense.Result

end
-- ==== Proof.FiniteInputs.lean ====
/-
  The precondition read back: every entry of the input and of the weights is a real number.

  The precondition is the conjunction of three tests "all entries of a have |a| < +inf", one per argument.  On the extended
  reals |a| < +inf excludes exactly the two infinities, so each test says that every entry of its argument is a real number.
  (The bias is added last on both sides and needs no such fact.)
-/
import proofs.«175212_j6047313952874_2_alg».proof.Pre_finite_inputs
import proofs.«175212_j6047313952874_2_alg».proof.Proof.Gen.Pre_finite_inputs
import proofs.«175212_j6047313952874_2_alg».proof.Proof.LibRealValued
import Idealize.ShloMosaic.Lib.Affine
import Idealize.ShloMosaic.Lib.ValueIdx

noncomputable section

namespace Cert.BiDense.Finite

open Idealize.ShloMosaic Idealize.ShloMosaic.ValueIdx Cert.RealValued Cert.Pre_finite_inputs Cert.Pre_finite_inputs.Gen

/-- Under the precondition the input's and the weights' entries are real numbers. -/
theorem inputs_real (X : FVec Ideal S4x4096x2048 .f32) (W : FVec Ideal S2048x8192 .f32) (B : FVec Ideal S8192 .f32)
    (h : Cert.Pre_finite_inputs.fn (F := Ideal) X W B = fun _ => 1#1) :
    (∀ i, IsReal (X i)) ∧ (∀ i, IsReal (W i)) := by
  have h0 := congrFun h ix0
  dsimp only [Cert.Pre_finite_inputs.fn] at h0
  obtain ⟨h12, -⟩ := IntOp.andi_eq_one.mp h0
  obtain ⟨h1, h2⟩ := IntOp.andi_eq_one.mp h12
  exact ⟨all_isReal X _ _ _ _ h1, all_isReal W _ _ _ _ h2⟩

end Cert.BiDense.Finite

end
-- ==== Proof.Bridge.lean ====
/-
  The two programs compute one function.

  Entry (b, s, f) of the kernel's result is ((Σ_d sgn x_d · sgn w_d) · 1/4) · a · w + bias_f and entry (b, s, f) of the
  reference's is Σ_d bin(x_d, a) · bin(w_d, w) + bias_f, where x is input row (b, s), w is weight column f, and a, w are their
  bounds.  Under the precondition the rows are real numbers, and the two are equal by the law of binarized contraction.
-/
import proofs.«175212_j6047313952874_2_alg».proof.Proof.RefAtIndex
import proofs.«175212_j6047313952874_2_alg».proof.Proof.KernelResult
import proofs.«175212_j6047313952874_2_alg».proof.Proof.FiniteInputs
import proofs.«175212_j6047313952874_2_alg».proof.Proof.BinarizeLaw

noncomputable section

namespace Cert.BiDense.Bridge

open Idealize.ShloMosaic Idealize.ShloMosaic.ValueIdx Cert.BiDense Cert.RealValued

/-- Under the precondition the kernel's value is the reference's. -/
theorem value_eq_reference (X : Cert.KernelIdeal.S4x4096x2048.Idx → EReal) (W : Cert.KernelIdeal.S2048x8192.Idx → EReal)
    (B : Cert.KernelIdeal.S8192.Idx → EReal) (h : Cert.Pre_finite_inputs.fn (F := Ideal) X W B = fun _ => 1#1) :
    Result.value X W B = Cert.ReferenceIdeal.Read.val_main_v33 (F := Ideal) X W B := by
  obtain ⟨hx, hw⟩ := Finite.inputs_real X W B h
  funext i
  obtain ⟨b, s, f, rfl⟩ : ∃ (b : Fin 4) (s : Fin 4096) (f : Fin 8192), i = ix3 b s f := ⟨i 0, i 1, i 2, eq_ix3 i⟩
  rw [Result.value_apply X W B b s f, Ref.result_apply X W B b s f]
  exact signs_contracted_eq_binarized_contracted (fun d : Fin 2048 => X (ix3 b s d)) (fun d : Fin 2048 => W (ix2 d f))
    (fun d => hx _) (fun d => hw _) (0 : Fin 2048) (B (ix1 f))

end Cert.BiDense.Bridge

end
-- ==== Proof.lean ====
/- The proof of `Cert.Claim`: a binarize-then-multiply dense layer.

   The kernel takes the sign of every input and weight entry and each row's (column's) bound on the host, multiplies the
   two sign matrices blockwise on a 16 × 16 grid, and scales block entry (r, f) by a quarter of row r's bound times column
   f's bound before adding the bias; the reference binarizes both operands entry by entry (scale by 1/bound, clip, floor,
   add 1/2, scale back) and contracts them.  On real inputs a binarized entry is half its bound, signed, so the two
   contractions differ by distributivity alone (Proof/BinarizeLaw.lean).  Proof/RefAtIndex.lean reads the reference at an
   index, Proof/KernelArrays.lean, KernelPayload.lean, KernelBlocks.lean and KernelResult.lean the kernel, Proof/FiniteInputs.lean
   the precondition, and Proof/Bridge.lean joins them.  The three frames are the generated runs; nothing was rewritten by
   the idealization, so its statement is trivial. -/
import proofs.«175212_j6047313952874_2_alg».proof.Defs
import proofs.«175212_j6047313952874_2_alg».proof.Proof.Gen.Kernel
import proofs.«175212_j6047313952874_2_alg».proof.Proof.Gen.Kernel.Skeleton
import proofs.«175212_j6047313952874_2_alg».proof.Proof.Gen.Kernel.Launch
import proofs.«175212_j6047313952874_2_alg».proof.Proof.Gen.Kernel.Points
import proofs.«175212_j6047313952874_2_alg».proof.Proof.Gen.Kernel.Frame
import proofs.«175212_j6047313952874_2_alg».proof.Proof.Gen.KernelIdeal
import proofs.«175212_j6047313952874_2_alg».proof.Proof.Gen.KernelIdeal.Skeleton
import proofs.«175212_j6047313952874_2_alg».proof.Proof.Gen.KernelIdeal.Launch
import proofs.«175212_j6047313952874_2_alg».proof.Proof.Gen.KernelIdeal.Points
import proofs.«175212_j6047313952874_2_alg».proof.Proof.Gen.KernelIdeal.Frame
import proofs.«175212_j6047313952874_2_alg».proof.Proof.Gen.ReferenceIdeal
import proofs.«175212_j6047313952874_2_alg».proof.Proof.Gen.Pre_finite_inputs
import proofs.«175212_j6047313952874_2_alg».proof.Proof.Gen.ReferenceIdeal.Run
import proofs.«175212_j6047313952874_2_alg».proof.Proof.Gen.ReferenceIdeal.Read
import proofs.«175212_j6047313952874_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's function of the (agreeing) arguments in their result buffers: the reference by
    its generated run, the kernel by its run and the equality of the two values under the precondition. -/
theorem algebraic : Cert.algebraic_KernelIdeal_ReferenceIdeal := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.BiDense.Bridge.value_eq_reference _ _ _ (hpre c)), (h c).2⟩)
      (Cert.BiDense.Result.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v33_eq, (hagree c).1, (hagree c).2.1, (hagree c).2.2]

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
